-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x5 : Shape := ⟨2, ![262144, 5]⟩
abbrev S100000x50 : Shape := ⟨2, ![100000, 50]⟩
abbrev S250x250 : Shape := ⟨2, ![250, 250]⟩
abbrev S250 : Shape := ⟨1, ![250]⟩
abbrev S250x36 : Shape := ⟨2, ![250, 36]⟩
abbrev S36 : Shape := ⟨1, ![36]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S250x250 : S_.BroadcastsInDim S250x250 (![] : Fin 0 → Fin S250x250.rank)
  reducesTo_S250x250_S_d0_1 : S250x250.ReducesTo [0, 1] S_
  bcast_S_S250 : S_.BroadcastsInDim S250 (![] : Fin 0 → Fin S250.rank)
  reducesTo_S250_S_d0 : S250.ReducesTo [0] S_
  bcast_S_S250x36 : S_.BroadcastsInDim S250x36 (![] : Fin 0 → Fin S250x36.rank)
  reducesTo_S250x36_S_d0_1 : S250x36.ReducesTo [0, 1] S_
  bcast_S_S36 : S_.BroadcastsInDim S36 (![] : Fin 0 → Fin S36.rank)
  reducesTo_S36_S_d0 : S36.ReducesTo [0] S_

variable [Facts]

def fn_part1 {F : FTy → Type} [FloatOps F] (main_arg5 : FVec F S36 .f32) (main_v13 : IVec S_ 1) (main_v16 : IVec S250x36 1) : IVec S_ 1 :=
  let main_c_5 : IVec S_ 1 := constantI S_ 1 1#1
  let main_v17 : IVec S_ 1 := (fun x v => Host.reduce IntOp.andi x v reducesTo_S250x36_S_d0_1 h_S_) main_v16 main_c_5
  let main_v18 : IVec S_ 1 := andi main_v13 main_v17
  let main_v19 : FVec F S36 .f32 := Host.absf main_arg5
  let main_cst_6 : FVec F S_ .f32 := constant S_ .f32 0x7F800000#32
  let main_v20 : FVec F S36 .f32 := broadcastInDim S36 ![] bcast_S_S36 main_cst_6
  let main_v21 : IVec S36 1 := cmpf .olt main_v19 main_v20
  let main_c_7 : IVec S_ 1 := constantI S_ 1 1#1
  let main_v22 : IVec S_ 1 := (fun x v => Host.reduce IntOp.andi x v reducesTo_S36_S_d0 h_S_) main_v21 main_c_7
  let main_v23 : IVec S_ 1 := andi main_v18 main_v22
  main_v23

def fn {F : FTy → Type} [FloatOps F] (main_arg0 : IVec S262144x5 32) (main_arg1 : FVec F S100000x50 .f32) (main_arg2 : FVec F S250x250 .f32) (main_arg3 : FVec F S250 .f32) (main_arg4 : FVec F S250x36 .f32) (main_arg5 : FVec F S36 .f32) : IVec S_ 1 :=
  let main_v0 : FVec F S100000x50 .f32 := Host.absf main_arg1
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S250x250 .f32 := Host.absf main_arg2
  let main_cst_0 : FVec F S_ .f32 := constant S_ .f32 0x7F800000#32
  let main_v5 : FVec F S250x250 .f32 := broadcastInDim S250x250 ![] bcast_S_S250x250 main_cst_0
  let main_v6 : IVec S250x250 1 := cmpf .olt main_v4 main_v5
  let main_c_1 : IVec S_ 1 := constantI S_ 1 1#1
  let main_v7 : IVec S_ 1 := (fun x v => Host.reduce IntOp.andi x v reducesTo_S250x250_S_d0_1 h_S_) main_v6 main_c_1
  let main_v8 : IVec S_ 1 := andi main_v3 main_v7
  let main_v9 : FVec F S250 .f32 := Host.absf main_arg3
  let main_cst_2 : FVec F S_ .f32 := constant S_ .f32 0x7F800000#32
  let main_v10 : FVec F S250 .f32 := broadcastInDim S250 ![] bcast_S_S250 main_cst_2
  let main_v11 : IVec S250 1 := cmpf .olt main_v9 main_v10
  let main_c_3 : IVec S_ 1 := constantI S_ 1 1#1
  let main_v12 : IVec S_ 1 := (fun x v => Host.reduce IntOp.andi x v reducesTo_S250_S_d0 h_S_) main_v11 main_c_3
  let main_v13 : IVec S_ 1 := andi main_v8 main_v12
  let main_v14 : FVec F S250x36 .f32 := Host.absf main_arg4
  let main_cst_4 : FVec F S_ .f32 := constant S_ .f32 0x7F800000#32
  let main_v15 : FVec F S250x36 .f32 := broadcastInDim S250x36 ![] bcast_S_S250x36 main_cst_4
  let main_v16 : IVec S250x36 1 := cmpf .olt main_v14 main_v15
  fn_part1 (F := F) main_arg5 main_v13 main_v16
-- ==== Kernel.lean ====
abbrev S262144x5 : Shape := ⟨2, ![262144, 5]⟩
abbrev S100000x50 : Shape := ⟨2, ![100000, 50]⟩
abbrev S250x250 : Shape := ⟨2, ![250, 250]⟩
abbrev S250 : Shape := ⟨1, ![250]⟩
abbrev S250x36 : Shape := ⟨2, ![250, 36]⟩
abbrev S36 : Shape := ⟨1, ![36]⟩
abbrev S_ : Shape := ⟨0, ![]⟩
abbrev S262144x5x1 : Shape := ⟨3, ![262144, 5, 1]⟩
abbrev S262144x5x50 : Shape := ⟨3, ![262144, 5, 50]⟩
abbrev S262144x250 : Shape := ⟨2, ![262144, 250]⟩
abbrev S1x250 : Shape := ⟨2, ![1, 250]⟩
abbrev S1x36 : Shape := ⟨2, ![1, 36]⟩
abbrev S262144x36 : Shape := ⟨2, ![262144, 36]⟩
abbrev S4096x250 : Shape := ⟨2, ![4096, 250]⟩
abbrev S4096x36 : Shape := ⟨2, ![4096, 36]⟩

abbrev nBuf : Space → Nat
  | .hbm => 38
  | .vmem => 8
  | .smem => 0
  | _ => 0

abbrev bufTy : (tb : Table) → Fin (tcTables nBuf tb) → BufTy
  | .hbm, ⟨0, _⟩ => ⟨S262144x5, .i32⟩
  | .hbm, ⟨1, _⟩ => ⟨S100000x50, .f32⟩
  | .hbm, ⟨2, _⟩ => ⟨S250x250, .f32⟩
  | .hbm, ⟨3, _⟩ => ⟨S250, .f32⟩
  | .hbm, ⟨4, _⟩ => ⟨S250x36, .f32⟩
  | .hbm, ⟨5, _⟩ => ⟨S36, .f32⟩
  | .hbm, ⟨6, _⟩ => ⟨S_, .i32⟩
  | .hbm, ⟨7, _⟩ => ⟨S262144x5, .i32⟩
  | .hbm, ⟨8, _⟩ => ⟨S262144x5, .i1⟩
  | .hbm, ⟨9, _⟩ => ⟨S_, .i32⟩
  | .hbm, ⟨10, _⟩ => ⟨S262144x5, .i32⟩
  | .hbm, ⟨11, _⟩ => ⟨S262144x5, .i1⟩
  | .hbm, ⟨12, _⟩ => ⟨S262144x5, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S262144x5, .i32⟩
  | .hbm, ⟨17, _⟩ => ⟨S262144x5, .i32⟩
  | .hbm, ⟨18, _⟩ => ⟨S_, .i32⟩
  | .hbm, ⟨19, _⟩ => ⟨S262144x5, .i32⟩
  | .hbm, ⟨20, _⟩ => ⟨S262144x5, .i32⟩
  | .hbm, ⟨21, _⟩ => ⟨S_, .i32⟩
  | .hbm, ⟨22, _⟩ => ⟨S262144x5, .i32⟩
  | .hbm, ⟨23, _⟩ => ⟨S262144x5, .i1⟩
  | .hbm, ⟨24, _⟩ => ⟨S_, .i32⟩
  | .hbm, ⟨25, _⟩ => ⟨S262144x5, .i32⟩
  | .hbm, ⟨26, _⟩ => ⟨S262144x5, .i32⟩
  | .hbm, ⟨27, _⟩ => ⟨S262144x5, .i32⟩
  | .hbm, ⟨28, _⟩ => ⟨S262144x5x1, .i32⟩
  | .hbm, ⟨29, _⟩ => ⟨S262144x5x50, .f32⟩
  | .hbm, ⟨30, _⟩ => ⟨S262144x5x1, .i1⟩
  | .hbm, ⟨31, _⟩ => ⟨S262144x5x1, .f32⟩
  | .hbm, ⟨32, _⟩ => ⟨S262144x5x50, .f32⟩
  | .hbm, ⟨33, _⟩ => ⟨S262144x5x50, .f32⟩
  | .hbm, ⟨34, _⟩ => ⟨S262144x250, .f32⟩
  | .hbm, ⟨35, _⟩ => ⟨S1x250, .f32⟩
  | .hbm, ⟨36, _⟩ => ⟨S1x36, .f32⟩
  | .hbm, ⟨37, _⟩ => ⟨S262144x36, .f32⟩
  | .local _ .vmem, ⟨0, _⟩ => ⟨S4096x250, .f32⟩
  | .local _ .vmem, ⟨1, _⟩ => ⟨S4096x250, .f32⟩
  | .local _ .vmem, ⟨2, _⟩ => ⟨S250x250, .f32⟩
  | .local _ .vmem, ⟨3, _⟩ => ⟨S1x250, .f32⟩
  | .local _ .vmem, ⟨4, _⟩ => ⟨S250x36, .f32⟩
  | .local _ .vmem, ⟨5, _⟩ => ⟨S1x36, .f32⟩
  | .local _ .vmem, ⟨6, _⟩ => ⟨S4096x36, .f32⟩
  | .local _ .vmem, ⟨7, _⟩ => ⟨S4096x36, .f32⟩
  | _, _ => ⟨S262144x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_c_3 : Ref sig .tc := ⟨.hbm, 21, rfl⟩
abbrev main_v6 : Ref sig .tc := ⟨.hbm, 22, rfl⟩
abbrev main_v7 : Ref sig .tc := ⟨.hbm, 23, rfl⟩
abbrev main_c_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S250x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x250 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S250x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S262144x5 : S_.BroadcastsInDim S262144x5 (![] : Fin 0 → Fin S262144x5.rank)
  bcast_S262144x5_S262144x5x1_0_1 : S262144x5.BroadcastsInDim S262144x5x1 (![0, 1] : Fin 2 → Fin S262144x5x1.rank)
  bcast_S262144x5x1_S262144x5x50_0_1_2 : S262144x5x1.BroadcastsInDim S262144x5x50 (![0, 1, 2] : Fin 3 → Fin S262144x5x50.rank)
  shapeCasts_S262144x5x50_S262144x250 : S262144x5x50.ShapeCasts S262144x250
  shapeCasts_S250_S1x250 : S250.ShapeCasts S1x250
  shapeCasts_S36_S1x36 : S36.ShapeCasts S1x36
  inb_S4096x250_S4096x250_0_0 : ∀ a, (![0, 0] : Fin 2 → Nat) a + S4096x250.size a ≤ S4096x250.size a
  h_S4096x250 : 0 < S4096x250.numel
  shapeCasts_S4096x250_S4096x250 : S4096x250.ShapeCasts S4096x250
  bitsLt_bf16_f32 : FTy.bits .bf16 < FTy.bits .f32
  inb_S250x250_S250x250_0_0 : ∀ a, (![0, 0] : Fin 2 → Nat) a + S250x250.size a ≤ S250x250.size a
  h_S250x250 : 0 < S250x250.numel
  inb_S1x250_S1x250_0_0 : ∀ a, (![0, 0] : Fin 2 → Nat) a + S1x250.size a ≤ S1x250.size a
  h_S1x250 : 0 < S1x250.numel
  shapeCasts_S1x250_S1x250 : S1x250.ShapeCasts S1x250
  broadcasts_S1x250_S4096x250 : S1x250.Broadcasts S4096x250
  inb_S250x36_S250x36_0_0 : ∀ a, (![0, 0] : Fin 2 → Nat) a + S250x36.size a ≤ S250x36.size a
  h_S250x36 : 0 < S250x36.numel
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S4096x36 : S1x36.Broadcasts S4096x36
  inb_S4096x36_S4096x36_0_0 : ∀ a, (![0, 0] : Fin 2 → Nat) a + S4096x36.size a ≤ S4096x36.size a
  h_S4096x36 : 0 < S4096x36.numel
  gather_S100000x50_S262144x5x1_S262144x5x50_2_0_n_n_0_2_150_wf : GatherDims.WF S100000x50 S262144x5x1 S262144x5x50 [2] [0] [] [0] [] 2 ![1, 50]
  dot_S4096x250_S250x250_S4096x250_1_0_0_1_n_n_wf : DotDims.WF S4096x250 S250x250 S4096x250 [1] [0] [0] [1] [] []
  dot_S4096x250_S250x36_S4096x36_1_0_0_1_n_n_wf : DotDims.WF S4096x250 S250x36 S4096x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x250.size a ≤ S262144x250.size a
  hwx0_0 : ∀ i : grid0.Coords, EltTy.bits .f32 = 32 ∨ (Rect.block (s := S262144x250) S4096x250.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S250x250.size a ≤ S250x250.size a
  hwx0_1 : ∀ i : grid0.Coords, EltTy.bits .f32 = 32 ∨ (Rect.block (s := S250x250) S250x250.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x250.size a ≤ S1x250.size a
  hwx0_2 : ∀ i : grid0.Coords, EltTy.bits .f32 = 32 ∨ (Rect.block (s := S1x250) S1x250.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S250x36.size a ≤ S250x36.size a
  hwx0_3 : ∀ i : grid0.Coords, EltTy.bits .f32 = 32 ∨ (Rect.block (s := S250x36) S250x36.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x36.size a ≤ S1x36.size a
  hwx0_4 : ∀ i : grid0.Coords, EltTy.bits .f32 = 32 ∨ (Rect.block (s := S1x36) S1x36.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x36.size a ≤ S262144x36.size a
  hwx0_5 : ∀ i : grid0.Coords, EltTy.bits .f32 = 32 ∨ (Rect.block (s := S262144x36) S4096x36.size (cc0_transform_5 i) (hinb0_5 i)).WholeWords (EltTy.packing .f32)

variable [Facts₀]

def gather_S100000x50_S262144x5x1_S262144x5x50_2_0_n_n_0_2_150 : GatherDims S100000x50 S262144x5x1 S262144x5x50 where
  offsetDims := [2]
  collapsedSliceDims := [0]
  operandBatchingDims := []
  startIndicesBatchingDims := []
  startIndexMap := [0]
  indexVectorDim := 2
  sliceSizes := ![1, 50]
  wf := gather_S100000x50_S262144x5x1_S262144x5x50_2_0_n_n_0_2_150_wf
def dot_S4096x250_S250x250_S4096x250_1_0_0_1_n_n : DotDims S4096x250 S250x250 S4096x250 where
  lhsContracting := [1]
  rhsContracting := [0]
  lhsNonContracting := [0]
  rhsNonContracting := [1]
  lhsBatch := []
  rhsBatch := []
  wf := dot_S4096x250_S250x250_S4096x250_1_0_0_1_n_n_wf
def dot_S4096x250_S250x36_S4096x36_1_0_0_1_n_n : DotDims S4096x250 S250x36 S4096x36 where
  lhsContracting := [1]
  rhsContracting := [0]
  lhsNonContracting := [0]
  rhsNonContracting := [1]
  lhsBatch := []
  rhsBatch := []
  wf := dot_S4096x250_S250x36_S4096x36_1_0_0_1_n_n_wf

abbrev win0_0 : Pipeline.Window sig grid0 :=
  Pipeline.Window.ofSpec (Memref.whole main_v17) S4096x250.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S250x250.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x250.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S250x36.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x36.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4096x36.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x5 : Shape := ⟨2, ![262144, 5]⟩
abbrev S100000x50 : Shape := ⟨2, ![100000, 50]⟩
abbrev S250x250 : Shape := ⟨2, ![250, 250]⟩
abbrev S250 : Shape := ⟨1, ![250]⟩
abbrev S250x36 : Shape := ⟨2, ![250, 36]⟩
abbrev S36 : Shape := ⟨1, ![36]⟩
abbrev S_ : Shape := ⟨0, ![]⟩
abbrev S262144x5x1 : Shape := ⟨3, ![262144, 5, 1]⟩
abbrev S262144x5x50 : Shape := ⟨3, ![262144, 5, 50]⟩
abbrev S262144x250 : Shape := ⟨2, ![262144, 250]⟩
abbrev S1x250 : Shape := ⟨2, ![1, 250]⟩
abbrev S262144x36 : Shape := ⟨2, ![262144, 36]⟩
abbrev S1x36 : Shape := ⟨2, ![1, 36]⟩

abbrev nBuf : Space → Nat
  | .hbm => 44
  | .vmem => 0
  | .smem => 0
  | _ => 0

abbrev bufTy : (tb : Table) → Fin (tcTables nBuf tb) → BufTy
  | .hbm, ⟨0, _⟩ => ⟨S262144x5, .i32⟩
  | .hbm, ⟨1, _⟩ => ⟨S100000x50, .f32⟩
  | .hbm, ⟨2, _⟩ => ⟨S250x250, .f32⟩
  | .hbm, ⟨3, _⟩ => ⟨S250, .f32⟩
  | .hbm, ⟨4, _⟩ => ⟨S250x36, .f32⟩
  | .hbm, ⟨5, _⟩ => ⟨S36, .f32⟩
  | .hbm, ⟨6, _⟩ => ⟨S_, .i32⟩
  | .hbm, ⟨7, _⟩ => ⟨S262144x5, .i32⟩
  | .hbm, ⟨8, _⟩ => ⟨S262144x5, .i1⟩
  | .hbm, ⟨9, _⟩ => ⟨S_, .i32⟩
  | .hbm, ⟨10, _⟩ => ⟨S262144x5, .i32⟩
  | .hbm, ⟨11, _⟩ => ⟨S262144x5, .i1⟩
  | .hbm, ⟨12, _⟩ => ⟨S262144x5, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S262144x5, .i32⟩
  | .hbm, ⟨17, _⟩ => ⟨S262144x5, .i32⟩
  | .hbm, ⟨18, _⟩ => ⟨S_, .i32⟩
  | .hbm, ⟨19, _⟩ => ⟨S262144x5, .i32⟩
  | .hbm, ⟨20, _⟩ => ⟨S262144x5, .i32⟩
  | .hbm, ⟨21, _⟩ => ⟨S_, .i32⟩
  | .hbm, ⟨22, _⟩ => ⟨S262144x5, .i32⟩
  | .hbm, ⟨23, _⟩ => ⟨S262144x5, .i1⟩
  | .hbm, ⟨24, _⟩ => ⟨S_, .i32⟩
  | .hbm, ⟨25, _⟩ => ⟨S262144x5, .i32⟩
  | .hbm, ⟨26, _⟩ => ⟨S262144x5, .i32⟩
  | .hbm, ⟨27, _⟩ => ⟨S262144x5, .i32⟩
  | .hbm, ⟨28, _⟩ => ⟨S262144x5x1, .i32⟩
  | .hbm, ⟨29, _⟩ => ⟨S262144x5x50, .f32⟩
  | .hbm, ⟨30, _⟩ => ⟨S262144x5x1, .i1⟩
  | .hbm, ⟨31, _⟩ => ⟨S262144x5x1, .f32⟩
  | .hbm, ⟨32, _⟩ => ⟨S262144x5x50, .f32⟩
  | .hbm, ⟨33, _⟩ => ⟨S262144x5x50, .f32⟩
  | .hbm, ⟨34, _⟩ => ⟨S262144x250, .f32⟩
  | .hbm, ⟨35, _⟩ => ⟨S262144x250, .f32⟩
  | .hbm, ⟨36, _⟩ => ⟨S1x250, .f32⟩
  | .hbm, ⟨37, _⟩ => ⟨S262144x250, .f32⟩
  | .hbm, ⟨38, _⟩ => ⟨S262144x250, .f32⟩
  | .hbm, ⟨39, _⟩ => ⟨S262144x250, .f32⟩
  | .hbm, ⟨40, _⟩ => ⟨S262144x36, .f32⟩
  | .hbm, ⟨41, _⟩ => ⟨S1x36, .f32⟩
  | .hbm, ⟨42, _⟩ => ⟨S262144x36, .f32⟩
  | .hbm, ⟨43, _⟩ => ⟨S262144x36, .f32⟩
  | _, _ => ⟨S262144x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_c_3 : Ref sig .tc := ⟨.hbm, 21, rfl⟩
abbrev main_v6 : Ref sig .tc := ⟨.hbm, 22, rfl⟩
abbrev main_v7 : Ref sig .tc := ⟨.hbm, 23, rfl⟩
abbrev main_c_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  bcast_S_S262144x5 : S_.BroadcastsInDim S262144x5 (![] : Fin 0 → Fin S262144x5.rank)
  bcast_S262144x5_S262144x5x1_0_1 : S262144x5.BroadcastsInDim S262144x5x1 (![0, 1] : Fin 2 → Fin S262144x5x1.rank)
  bcast_S262144x5x1_S262144x5x50_0_1_2 : S262144x5x1.BroadcastsInDim S262144x5x50 (![0, 1, 2] : Fin 3 → Fin S262144x5x50.rank)
  shapeCasts_S262144x5x50_S262144x250 : S262144x5x50.ShapeCasts S262144x250
  bcast_S250_S1x250_1 : S250.BroadcastsInDim S1x250 (![1] : Fin 1 → Fin S1x250.rank)
  bcast_S1x250_S262144x250_0_1 : S1x250.BroadcastsInDim S262144x250 (![0, 1] : Fin 2 → Fin S262144x250.rank)
  bcast_S36_S1x36_1 : S36.BroadcastsInDim S1x36 (![1] : Fin 1 → Fin S1x36.rank)
  bcast_S1x36_S262144x36_0_1 : S1x36.BroadcastsInDim S262144x36 (![0, 1] : Fin 2 → Fin S262144x36.rank)
  gather_S100000x50_S262144x5x1_S262144x5x50_2_0_n_n_0_2_150_wf : GatherDims.WF S100000x50 S262144x5x1 S262144x5x50 [2] [0] [] [0] [] 2 ![1, 50]
  dot_S262144x250_S250x250_S262144x250_1_0_0_1_n_n_wf : DotDims.WF S262144x250 S250x250 S262144x250 [1] [0] [0] [1] [] []
  dot_S262144x250_S250x36_S262144x36_1_0_0_1_n_n_wf : DotDims.WF S262144x250 S250x36 S262144x36 [1] [0] [0] [1] [] []

variable [Facts₀]

def gather_S100000x50_S262144x5x1_S262144x5x50_2_0_n_n_0_2_150 : GatherDims S100000x50 S262144x5x1 S262144x5x50 where
  offsetDims := [2]
  collapsedSliceDims := [0]
  operandBatchingDims := []
  startIndicesBatchingDims := []
  startIndexMap := [0]
  indexVectorDim := 2
  sliceSizes := ![1, 50]
  wf := gather_S100000x50_S262144x5x1_S262144x5x50_2_0_n_n_0_2_150_wf
def dot_S262144x250_S250x250_S262144x250_1_0_0_1_n_n : DotDims S262144x250 S250x250 S262144x250 where
  lhsContracting := [1]
  rhsContracting := [0]
  lhsNonContracting := [0]
  rhsNonContracting := [1]
  lhsBatch := []
  rhsBatch := []
  wf := dot_S262144x250_S250x250_S262144x250_1_0_0_1_n_n_wf
def dot_S262144x250_S250x36_S262144x36_1_0_0_1_n_n : DotDims S262144x250 S250x36 S262144x36 where
  lhsContracting := [1]
  rhsContracting := [0]
  lhsNonContracting := [0]
  rhsNonContracting := [1]
  lhsBatch := []
  rhsBatch := []
  wf := dot_S262144x250_S250x36_S262144x36_1_0_0_1_n_n_wf

class Facts : Prop extends Facts₀ where

variable [Facts]
-- ==== Proof.Spec.lean ====
/-
  The function both programs compute, stated once over literal shapes and no program.

  A two-layer perceptron applied row by row.  For one input row `xr` (250 numbers), weights `w1` (250 × 250),
  `w2` (250 × 36) and biases `b1`, `b2`, output entry `o` is

      ( Σ_k  tanh( (Σ_j xr j · w1 (j, k)) + b1 k ) · w2 (k, o) ) + b2 o

  on the extended reals, both sums over `Fin 250` in index order.  The whole result array has 262144 rows; entry
  `(r, o)` is that expression of row `r` of the input array `X`.  Since an entry reads one row of `X` only, any
  tiling of the rows computes the same array: that is all the blocked program needs.
-/
import Idealize.ShloMosaic.PureOps.Ideal
import Idealize.ShloMosaic.Lib.ValueIdx

noncomputable section

namespace Cert.Mlp

open Idealize.ShloMosaic Idealize.ShloMosaic.ValueIdx

/-- Output entry `o` of the perceptron from ONE input row `xr`. -/
def rowOut (xr : Fin 250 → EReal) (w1 : (⟨2, ![250, 250]⟩ : Shape).Idx → EReal) (b1 : Fin 250 → EReal)
    (w2 : (⟨2, ![250, 36]⟩ : Shape).Idx → EReal) (b2 : Fin 36 → EReal) (o : Fin 36) : EReal :=
  (∑ k : Fin 250, Ideal.tanh ((∑ j : Fin 250, xr j * w1 (ix2 j k)) + b1 k) * w2 (ix2 k o)) + b2 o

/-- The whole result: entry `(r, o)` is `rowOut` of row `r` of `X`; the biases are rank-one arrays. -/
def out (X : (⟨2, ![262144, 250]⟩ : Shape).Idx → EReal) (w1 : (⟨2, ![250, 250]⟩ : Shape).Idx → EReal)
    (b1 : (⟨1, ![250]⟩ : Shape).Idx → EReal) (w2 : (⟨2, ![250, 36]⟩ : Shape).Idx → EReal)
    (b2 : (⟨1, ![36]⟩ : Shape).Idx → EReal) : (⟨2, ![262144, 36]⟩ : Shape).Idx → EReal :=
  fun i => rowOut (fun j => X (ix2 (⟨(i 0).val, (i 0).isLt⟩ : Fin 262144) j)) w1 (fun k => b1 (ix1 k)) w2 (fun o => b2 (ix1 o))
    (⟨(i 1).val, (i 1).isLt⟩ : Fin 36)

/-- At explicit coordinates. -/
theorem out_ix2 (X : (⟨2, ![262144, 250]⟩ : Shape).Idx → EReal) (w1 : (⟨2, ![250, 250]⟩ : Shape).Idx → EReal)
    (b1 : (⟨1, ![250]⟩ : Shape).Idx → EReal) (w2 : (⟨2, ![250, 36]⟩ : Shape).Idx → EReal)
    (b2 : (⟨1, ![36]⟩ : Shape).Idx → EReal) (r : Fin 262144) (o : Fin 36) :
    out X w1 b1 w2 b2 (ix2 r o) = rowOut (fun j => X (ix2 r j)) w1 (fun k => b1 (ix1 k)) w2 (fun o => b2 (ix1 o)) o := rfl

end Cert.Mlp

end
-- ==== Proof.RefIsSpec.lean ====
/-
  The reference's result array is the perceptron of `Spec.lean` applied to its own embedded input.

  The reference first builds the input array `X` (a masked table lookup, re-laid as 262144 × 250; kept here as ONE
  opaque stage, never opened), then takes `X · w1 + b1`, `tanh`, `· w2 + b2` with whole-array products and
  broadcast biases.  Read at an entry `(r, o)`: each product is a sum over the 250 contraction positions of the
  left operand at `(r, k)` times the right at `(k, o)`; a broadcast bias is the bias vector at the column.  That is
  `Mlp.rowOut` of row `r` of `X`, term by term; no algebra is needed.
-/
import proofs.«108515_j13340168421424_1_alg».proof.Proof.Gen.ReferenceIdeal.Read
import proofs.«108515_j13340168421424_1_alg».proof.Proof.Spec

noncomputable section

namespace Cert.Mlp.Ref

open Cert.ReferenceIdeal Cert.ReferenceIdeal.Gen Cert.ReferenceIdeal.Read
open Idealize.ShloMosaic Idealize.ShloMosaic.ValueIdx

/-! ## The composed index maps of the generated read lemmas, at explicit coordinates -/

theorem lidx23 (r : Fin 262144) (o : Fin 36) (k : Fin 250) : lidx_main_v23 (ix2 r o) k = ix2 r k :=
  funext fun a => Fin.ext (by match a with | ⟨0, _⟩ => rfl | ⟨1, _⟩ => rfl)
theorem ridx23 (r : Fin 262144) (o : Fin 36) (k : Fin 250) : ridx_main_v23 (ix2 r o) k = ix2 k o :=
  funext fun a => Fin.ext (by match a with | ⟨0, _⟩ => rfl | ⟨1, _⟩ => rfl)
theorem lidx18 (r : Fin 262144) (k : Fin 250) (j : Fin 250) : lidx_main_v18 (ix2 r k) j = ix2 r j :=
  funext fun a => Fin.ext (by match a with | ⟨0, _⟩ => rfl | ⟨1, _⟩ => rfl)
theorem ridx18 (r : Fin 262144) (k : Fin 250) (j : Fin 250) : ridx_main_v18 (ix2 r k) j = ix2 j k :=
  funext fun a => Fin.ext (by match a with | ⟨0, _⟩ => rfl | ⟨1, _⟩ => rfl)
theorem idxb1 (r : Fin 262144) (k : Fin 250) : idx_main_v19 (idx_main_v20 (ix2 r k)) = ix1 k :=
  funext fun a => Fin.ext (by match a with | ⟨0, _⟩ => rfl)
theorem idxb2 (r : Fin 262144) (o : Fin 36) : idx_main_v24 (idx_main_v25 (ix2 r o)) = ix1 o :=
  funext fun a => Fin.ext (by match a with | ⟨0, _⟩ => rfl)

/-! ## The reference is the specification -/

/-- The last stage of the reference, as a function of the six argument arrays, is `Mlp.out` of the embedded input
    stage and the four weight arrays. -/
theorem result_eq (x0 : (⟨S262144x5, .i32⟩ : BufTy).Contents (Elt Ideal)) (x1 : (⟨S100000x50, .f32⟩ : BufTy).Contents (Elt Ideal))
    (x2 : (⟨S250x250, .f32⟩ : BufTy).Contents (Elt Ideal)) (x3 : (⟨S250, .f32⟩ : BufTy).Contents (Elt Ideal))
    (x4 : (⟨S250x36, .f32⟩ : BufTy).Contents (Elt Ideal)) (x5 : (⟨S36, .f32⟩ : BufTy).Contents (Elt Ideal)) :
    val_main_v26 (F := Ideal) x0 x1 x2 x3 x4 x5 = Cert.Mlp.out (val_main_v17 (F := Ideal) x0 x1) x2 x3 x4 x5 := by
  funext i
  obtain ⟨r, o, rfl⟩ : ∃ (r : Fin 262144) (o : Fin 36), i = ix2 r o := ⟨i 0, i 1, eq_ix2 i⟩
  rw [Cert.Mlp.out_ix2]
  unfold Cert.Mlp.rowOut
  rw [val_main_v26_apply, val_main_v23_apply, val_main_v25_apply, val_main_v24_apply, idxb2]
  simp only [lidx23, ridx23, val_main_v22_apply, val_main_v21_apply, val_main_v18_apply, val_main_v20_apply,
    val_main_v19_apply, lidx18, ridx18, idxb1, Ideal.addf_def, Ideal.hostUnary_tanh_def]

end Cert.Mlp.Ref

end
-- ==== Proof.Payload.lean ====
/-
  What the kernel body stores, read at an entry of its block.

  On one tile the body loads a 4096 × 250 block `x` of the input, the two weight arrays and the two biases (as
  1 × 250 and 1 × 36 rows), and stores  tanh(x · w1 + b1) · w2 + b2  over the tile.  At the ideal values the
  roundings to bf16 are the identity, a shape cast to the same shape is the identity, each matrix product into a
  zero accumulator read at `(p, q)` is the sum over the 250 contraction positions of left `(p, k)` times right
  `(k, q)`, and a broadcast bias row read at `(p, q)` is the row at `(0, q)`.  So entry `(p, q)` of the stored
  tile is `Mlp.rowOut` of row `p` of the block.
-/
import proofs.«108515_j13340168421424_1_alg».proof.Proof.Gen.KernelIdeal.Skeleton
import proofs.«108515_j13340168421424_1_alg».proof.Proof.Spec
import Idealize.ShloMosaic.Lib.Pipeline.Value
import Idealize.ShloMosaic.Lib.ValueIdx
import Idealize.ShloMosaic.PureOps.Ideal.Laws

noncomputable section

namespace Cert.Mlp.Body

open Cert.KernelIdeal Cert.KernelIdeal.Gen
open Idealize.ShloMosaic Idealize.ShloMosaic.ValueIdx

/-! ## The first product, tile × w1, at an entry -/

theorem lhs1_0 (i : S4096x250.Idx) (q : dot_S4096x250_S250x250_S4096x250_1_0_0_1_n_n.contr.Idx) :
    (dot_S4096x250_S250x250_S4096x250_1_0_0_1_n_n.lhsIdx i q 0).val = (i 0).val := by
  unfold DotDims.lhsIdx
  rw [dif_neg (show ¬(0 : Fin S4096x250.rank) ∈ dot_S4096x250_S250x250_S4096x250_1_0_0_1_n_n.lhsBatch by decide),
    dif_pos (show (0 : Fin S4096x250.rank) ∈ dot_S4096x250_S250x250_S4096x250_1_0_0_1_n_n.lhsNonContracting by decide)]
  rfl
theorem rhs1_1 (i : S4096x250.Idx) (q : dot_S4096x250_S250x250_S4096x250_1_0_0_1_n_n.contr.Idx) :
    (dot_S4096x250_S250x250_S4096x250_1_0_0_1_n_n.rhsIdx i q 1).val = (i 1).val := by
  unfold DotDims.rhsIdx
  rw [dif_neg (show ¬(1 : Fin S250x250.rank) ∈ dot_S4096x250_S250x250_S4096x250_1_0_0_1_n_n.rhsBatch by decide),
    dif_pos (show (1 : Fin S250x250.rank) ∈ dot_S4096x250_S250x250_S4096x250_1_0_0_1_n_n.rhsNonContracting by decide)]
  rfl

/-- The tile's product with `w1` into the zero accumulator, at `(p, k)`: the sum over `j` of left `(p, j)` times
    right `(j, k)`. -/
theorem product1_apply (l : FVec Ideal S4096x250 .bf16) (r : FVec Ideal S250x250 .bf16) (p : Fin 4096) (k : Fin 250) :
    matmul dot_S4096x250_S250x250_S4096x250_1_0_0_1_n_n none l r (constant S4096x250 .f32 0x00000000#32) (ix2 p k)
      = ∑ j : Fin 250, l (ix2 p j) * r (ix2 j k) := by
  simp only [matmul]
  rw [Ideal.matmul_constant_zero_apply,
    ← Equiv.sum_comp (ValueIdx.contrEquiv1 dot_S4096x250_S250x250_S4096x250_1_0_0_1_n_n 250 rfl rfl).symm]
  refine Finset.sum_congr rfl fun j _ => ?_
  have hj := ValueIdx.contrEquiv1_symm_val dot_S4096x250_S250x250_S4096x250_1_0_0_1_n_n 250 rfl rfl j
  have el : dot_S4096x250_S250x250_S4096x250_1_0_0_1_n_n.lhsIdx (ix2 p k)
      ((ValueIdx.contrEquiv1 dot_S4096x250_S250x250_S4096x250_1_0_0_1_n_n 250 rfl rfl).symm j) = ix2 p j :=
    funext fun a => Fin.ext (by
      match a with
      | ⟨0, _⟩ => exact lhs1_0 _ _
      | ⟨1, _⟩ => exact (dot_S4096x250_S250x250_S4096x250_1_0_0_1_n_n.lhsIdx_val_of_single rfl _ _).trans hj)
  have er : dot_S4096x250_S250x250_S4096x250_1_0_0_1_n_n.rhsIdx (ix2 p k)
      ((ValueIdx.contrEquiv1 dot_S4096x250_S250x250_S4096x250_1_0_0_1_n_n 250 rfl rfl).symm j) = ix2 j k :=
    funext fun a => Fin.ext (by
      match a with
      | ⟨0, _⟩ => exact (dot_S4096x250_S250x250_S4096x250_1_0_0_1_n_n.rhsIdx_val_of_single rfl _ _).trans hj
      | ⟨1, _⟩ => exact rhs1_1 _ _)
  rw [el, er]

/-! ## The second product, hidden tile × w2, at an entry -/

theorem lhs2_0 (i : S4096x36.Idx) (q : dot_S4096x250_S250x36_S4096x36_1_0_0_1_n_n.contr.Idx) :
    (dot_S4096x250_S250x36_S4096x36_1_0_0_1_n_n.lhsIdx i q 0).val = (i 0).val := by
  unfold DotDims.lhsIdx
  rw [dif_neg (show ¬(0 : Fin S4096x250.rank) ∈ dot_S4096x250_S250x36_S4096x36_1_0_0_1_n_n.lhsBatch by decide),
    dif_pos (show (0 : Fin S4096x250.rank) ∈ dot_S4096x250_S250x36_S4096x36_1_0_0_1_n_n.lhsNonContracting by decide)]
  rfl
theorem rhs2_1 (i : S4096x36.Idx) (q : dot_S4096x250_S250x36_S4096x36_1_0_0_1_n_n.contr.Idx) :
    (dot_S4096x250_S250x36_S4096x36_1_0_0_1_n_n.rhsIdx i q 1).val = (i 1).val := by
  unfold DotDims.rhsIdx
  rw [dif_neg (show ¬(1 : Fin S250x36.rank) ∈ dot_S4096x250_S250x36_S4096x36_1_0_0_1_n_n.rhsBatch by decide),
    dif_pos (show (1 : Fin S250x36.rank) ∈ dot_S4096x250_S250x36_S4096x36_1_0_0_1_n_n.rhsNonContracting by decide)]
  rfl

/-- The hidden tile's product with `w2` into the zero accumulator, at `(p, q)`. -/
theorem product2_apply (l : FVec Ideal S4096x250 .bf16) (r : FVec Ideal S250x36 .bf16) (p : Fin 4096) (q : Fin 36) :
    matmul dot_S4096x250_S250x36_S4096x36_1_0_0_1_n_n none l r (constant S4096x36 .f32 0x00000000#32) (ix2 p q)
      = ∑ k : Fin 250, l (ix2 p k) * r (ix2 k q) := by
  simp only [matmul]
  rw [Ideal.matmul_constant_zero_apply,
    ← Equiv.sum_comp (ValueIdx.contrEquiv1 dot_S4096x250_S250x36_S4096x36_1_0_0_1_n_n 250 rfl rfl).symm]
  refine Finset.sum_congr rfl fun k _ => ?_
  have hk := ValueIdx.contrEquiv1_symm_val dot_S4096x250_S250x36_S4096x36_1_0_0_1_n_n 250 rfl rfl k
  have el : dot_S4096x250_S250x36_S4096x36_1_0_0_1_n_n.lhsIdx (ix2 p q)
      ((ValueIdx.contrEquiv1 dot_S4096x250_S250x36_S4096x36_1_0_0_1_n_n 250 rfl rfl).symm k) = ix2 p k :=
    funext fun a => Fin.ext (by
      match a with
      | ⟨0, _⟩ => exact lhs2_0 _ _
      | ⟨1, _⟩ => exact (dot_S4096x250_S250x36_S4096x36_1_0_0_1_n_n.lhsIdx_val_of_single rfl _ _).trans hk)
  have er : dot_S4096x250_S250x36_S4096x36_1_0_0_1_n_n.rhsIdx (ix2 p q)
      ((ValueIdx.contrEquiv1 dot_S4096x250_S250x36_S4096x36_1_0_0_1_n_n 250 rfl rfl).symm k) = ix2 k q :=
    funext fun a => Fin.ext (by
      match a with
      | ⟨0, _⟩ => exact (dot_S4096x250_S250x36_S4096x36_1_0_0_1_n_n.rhsIdx_val_of_single rfl _ _).trans hk
      | ⟨1, _⟩ => exact rhs2_1 _ _)
  rw [el, er]

/-! ## A bias row broadcast down the tile -/

/-- The 1 × 250 row broadcast to 4096 × 250, at `(p, k)`, is the row at `(0, k)`. -/
theorem biasRow1_apply (y : FVec Ideal S1x250 .f32) (h : S1x250.Broadcasts S4096x250) (p : Fin 4096) (k : Fin 250) :
    broadcastTo S4096x250 y h (ix2 p k) = y (ix2 (0 : Fin 1) k) :=
  broadcastTo_apply y h (ix2 p k) (ix2 (0 : Fin 1) k) (fun a => by
    match a with
    | ⟨0, _⟩ => show (0 : ℕ) = if (1 : ℕ) = 1 then 0 else _; rw [if_pos rfl]
    | ⟨1, _⟩ => show k.val = if (250 : ℕ) = 1 then 0 else k.val; rw [if_neg (by decide)])

/-- The 1 × 36 row broadcast to 4096 × 36, at `(p, q)`, is the row at `(0, q)`. -/
theorem biasRow2_apply (y : FVec Ideal S1x36 .f32) (h : S1x36.Broadcasts S4096x36) (p : Fin 4096) (q : Fin 36) :
    broadcastTo S4096x36 y h (ix2 p q) = y (ix2 (0 : Fin 1) q) :=
  broadcastTo_apply y h (ix2 p q) (ix2 (0 : Fin 1) q) (fun a => by
    match a with
    | ⟨0, _⟩ => show (0 : ℕ) = if (1 : ℕ) = 1 then 0 else _; rw [if_pos rfl]
    | ⟨1, _⟩ => show q.val = if (36 : ℕ) = 1 then 0 else q.val; rw [if_neg (by decide)])

/-! ## The stored tile at an entry -/

/-- Entry `(p, q)` of what the body stores is the perceptron's row function of row `p` of the loaded block. -/
theorem stored_apply (x0 : Vec Ideal S4096x250 .f32) (x1 : Vec Ideal S250x250 .f32) (x2 : Vec Ideal S1x250 .f32)
    (x3 : Vec Ideal S250x36 .f32) (x4 : Vec Ideal S1x36 .f32) (p : Fin 4096) (q : Fin 36) :
    k0_pay1 (F := Ideal) x0 x1 x2 x3 x4 (ix2 p q)
      = Cert.Mlp.rowOut (fun j => x0 (ix2 p j)) x1 (fun k => x2 (ix2 (0 : Fin 1) k)) x3 (fun o => x4 (ix2 (0 : Fin 1) o)) q := by
  unfold k0_pay1 Cert.Mlp.rowOut
  dsimp only
  rw [shapeCast_self, shapeCast_self, shapeCast_self]
  refine (congrArg₂ (· + ·) (product2_apply _ _ p q) (biasRow2_apply _ _ p q)).trans ?_
  refine congrArg (· + x4 (ix2 (0 : Fin 1) q)) (Finset.sum_congr rfl fun k _ => ?_)
  refine congrArg (· * x3 (ix2 k q)) ?_
  refine (congrArg Ideal.tanh (congrArg₂ (· + ·) (product1_apply _ _ p k) (biasRow1_apply _ _ p k))).trans ?_
  rfl

end Cert.Mlp.Body

end
-- ==== Proof.Tiles.lean ====
/-
  From the 64 row tiles to the whole result array.

  Grid point `t` works on rows `4096·t … 4096·t + 4095`: its input block is those rows of the input array, the
  weight and bias windows are the whole arrays at every point, and it writes back those rows of the result.  An
  entry of the perceptron reads one input row only, so what point `t` writes back is exactly the rows
  `4096·t …` of the one whole-array function `Mlp.out` of the arrays the launch finds.  Row `r` lies in the tile of
  point `r / 4096`, so the 64 tiles cover the array, and the array after the launch is `Mlp.out` everywhere.
-/
import proofs.«108515_j13340168421424_1_alg».proof.Proof.Gen.KernelIdeal.Value
import proofs.«108515_j13340168421424_1_alg».proof.Proof.Spec
import proofs.«108515_j13340168421424_1_alg».proof.Proof.Payload

set_option maxRecDepth 16384

noncomputable section

namespace Cert.Mlp.Tiles

open Cert.KernelIdeal Cert.KernelIdeal.Gen
open Idealize.ShloMosaic Idealize.ShloMosaic.TcCoe Idealize.ShloMosaic.ValueIdx Idealize.SL.Sem
open Idealize.ShloMosaic.Pipeline (Dat)

/-! ## One tile, over plain variables -/

/-- If a 4096-row block `x0` holds rows `4096·T …` of `X`, and the other loaded blocks are the whole weight and
    one-row bias arrays, then entry `y` of the stored tile is `Mlp.out` at the entry `i` that `y` is sent to:
    row `4096·T + y 0`, the same column. -/
theorem tile_entry (X : (⟨2, ![262144, 250]⟩ : Shape).Idx → EReal) (w1 : (⟨2, ![250, 250]⟩ : Shape).Idx → EReal)
    (B1 : (⟨2, ![1, 250]⟩ : Shape).Idx → EReal) (w2 : (⟨2, ![250, 36]⟩ : Shape).Idx → EReal)
    (B2 : (⟨2, ![1, 36]⟩ : Shape).Idx → EReal)
    (x0 : Vec Ideal S4096x250 .f32) (x1 : Vec Ideal S250x250 .f32) (x2 : Vec Ideal S1x250 .f32)
    (x3 : Vec Ideal S250x36 .f32) (x4 : Vec Ideal S1x36 .f32) (T : ℕ)
    (h0 : ∀ (p : Fin 4096) (j : Fin 250) (r : Fin 262144), r.val = T * 4096 + p.val → x0 (ix2 p j) = X (ix2 r j))
    (h1 : ∀ y, x1 y = w1 y) (h2 : ∀ y, x2 y = B1 y) (h3 : ∀ y, x3 y = w2 y) (h4 : ∀ y, x4 y = B2 y)
    (y : (⟨2, ![4096, 36]⟩ : Shape).Idx) (i : (⟨2, ![262144, 36]⟩ : Shape).Idx)
    (hi0 : (i 0).val = T * 4096 + (y 0).val) (hi1 : (i 1).val = (y 1).val) :
    k0_pay1 (F := Ideal) x0 x1 x2 x3 x4 y
      = Cert.Mlp.out X w1 (fun a => B1 (ix2 (0 : Fin 1) (⟨(a 0).val, (a 0).isLt⟩ : Fin 250))) w2
          (fun a => B2 (ix2 (0 : Fin 1) (⟨(a 0).val, (a 0).isLt⟩ : Fin 36))) i := by
  obtain ⟨p, q, rfl⟩ : ∃ (p : Fin 4096) (q : Fin 36), y = ix2 p q := ⟨y 0, y 1, eq_ix2 y⟩
  obtain ⟨r, o, rfl⟩ : ∃ (r : Fin 262144) (o : Fin 36), i = ix2 r o := ⟨i 0, i 1, eq_ix2 i⟩
  have ho : o = q := Fin.ext hi1
  subst ho
  have e1 : x1 = w1 := funext h1
  have e2 : x2 = B1 := funext h2
  have e3 : x3 = w2 := funext h3
  have e4 : x4 = B2 := funext h4
  subst e1 e2 e3 e4
  rw [Cert.Mlp.Body.stored_apply, Cert.Mlp.out_ix2]
  have e0 : (fun j : Fin 250 => x0 (ix2 p j)) = fun j => X (ix2 r j) := funext fun j => h0 p j r hi0
  rw [e0]

/-! ## The launch's arrays and the grid's index maps -/

variable (m : (ℓ : Loc nD τ sig) → Buf (Elt Ideal) ℓ) (ρ : Dev nD → PrngReg)

theorem zeroOffsets : (![0, 0] : Fin 2 → Nat) = fun _ => 0 := funext fun a => by fin_cases a <;> rfl

/-- The whole result as ONE function of the arrays the launch finds: the perceptron of the input array, the two
    weight arrays, and row 0 of each one-row bias array. -/
def found (c : Dev nD) : S262144x36.Idx → EReal :=
  Cert.Mlp.out (V m c main_v17) (V m c main_arg2)
    (fun a => V m c main_v18 (ix2 (0 : Fin 1) (⟨(a 0).val, (a 0).isLt⟩ : Fin 250))) (V m c main_arg4)
    (fun a => V m c main_v19 (ix2 (0 : Fin 1) (⟨(a 0).val, (a 0).isLt⟩ : Fin 36)))

/-- The index maps over the 64 grid points: the input and the result move down one tile per point, the weight and
    bias windows stay at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every tile of rows is some point's. -/
theorem index_onto : ∀ q : Fin 64, ∃ t : Fin cfg0.N, win0_5.index t = ![q.val, 0] :=
  (by decide +kernel : ∀ q : Fin 64, ∃ t : Fin grid0.N, win0_5.index t = ![q.val, 0])

/-! ## What point `t` writes back -/

/-- Point `t` writes back block `t` of `found`. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero zeroOffsets]
  simp only [View.ld_unit_zero (S := S4096x250) zeroOffsets, View.ld_unit_zero (S := S250x250) zeroOffsets,
    View.ld_unit_zero (S := S1x250) zeroOffsets, View.ld_unit_zero (S := S250x36) zeroOffsets,
    View.ld_unit_zero (S := S1x36) zeroOffsets]
  obtain ⟨e00, e01, e10, e11, e20, e21, e30, e31, e40, e41, e50, e51⟩ := index_facts t
  funext y
  show k0_pay1 (F := Ideal) (iblk m c 0 t) (iblk m c 1 t) (iblk m c 2 t) (iblk m c 3 t) (iblk m c 4 t) y
    = found m c (((cfg0.win 5).blk t).view.emb y)
  unfold found
  refine tile_entry (V m c main_v17) (V m c main_arg2) (V m c main_v18) (V m c main_arg4) (V m c main_v19)
    (iblk m c 0 t) (iblk m c 1 t) (iblk m c 2 t) (iblk m c 3 t) (iblk m c 4 t) t.val ?_ ?_ ?_ ?_ ?_ y
    (((cfg0.win 5).blk t).view.emb y) ?_ ?_
  · intro p j r hr
    have e : ((cfg0.win 0).blk t).view.emb (ix2 p j) = ix2 r j := by
      funext a; apply Fin.ext
      match a with
      | ⟨0, _⟩ => show win0_0.index t (0 : Fin 2) * 4096 + 1 * p.val = r.val; omega
      | ⟨1, _⟩ => show win0_0.index t (1 : Fin 2) * 250 + 1 * j.val = j.val; omega
    show V m c main_v17 (((cfg0.win 0).blk t).view.emb (ix2 p j)) = V m c main_v17 (ix2 r j)
    rw [e]
  · intro z
    have e : ((cfg0.win 1).blk t).view.emb z = z := by
      funext a; apply Fin.ext
      match a with
      | ⟨0, _⟩ => show win0_1.index t (0 : Fin 2) * 250 + 1 * (z 0).val = (z 0).val; omega
      | ⟨1, _⟩ => show win0_1.index t (1 : Fin 2) * 250 + 1 * (z 1).val = (z 1).val; omega
    show V m c main_arg2 (((cfg0.win 1).blk t).view.emb z) = V m c main_arg2 z
    rw [e]
  · intro z
    have e : ((cfg0.win 2).blk t).view.emb z = z := by
      funext a; apply Fin.ext
      match a with
      | ⟨0, _⟩ => show win0_2.index t (0 : Fin 2) * 1 + 1 * (z 0).val = (z 0).val; omega
      | ⟨1, _⟩ => show win0_2.index t (1 : Fin 2) * 250 + 1 * (z 1).val = (z 1).val; omega
    show V m c main_v18 (((cfg0.win 2).blk t).view.emb z) = V m c main_v18 z
    rw [e]
  · intro z
    have e : ((cfg0.win 3).blk t).view.emb z = z := by
      funext a; apply Fin.ext
      match a with
      | ⟨0, _⟩ => show win0_3.index t (0 : Fin 2) * 250 + 1 * (z 0).val = (z 0).val; omega
      | ⟨1, _⟩ => show win0_3.index t (1 : Fin 2) * 36 + 1 * (z 1).val = (z 1).val; omega
    show V m c main_arg4 (((cfg0.win 3).blk t).view.emb z) = V m c main_arg4 z
    rw [e]
  · intro z
    have e : ((cfg0.win 4).blk t).view.emb z = z := by
      funext a; apply Fin.ext
      match a with
      | ⟨0, _⟩ => show win0_4.index t (0 : Fin 2) * 1 + 1 * (z 0).val = (z 0).val; omega
      | ⟨1, _⟩ => show win0_4.index t (1 : Fin 2) * 36 + 1 * (z 1).val = (z 1).val; omega
    show V m c main_v19 (((cfg0.win 4).blk t).view.emb z) = V m c main_v19 z
    rw [e]
  · show win0_5.index t (0 : Fin 2) * 4096 + 1 * (y 0).val = t.val * 4096 + (y 0).val; omega
  · show win0_5.index t (1 : Fin 2) * 36 + 1 * (y 1).val = (y 1).val; omega

/-! ## The tiles cover the array -/

/-- An entry is in point `t`'s tile iff each coordinate is in the tile's range on its axis. -/
theorem mem_tile (t : Fin cfg0.N) (i : S262144x36.Idx) :
    i ∈ ((cfg0.win 5).blk t).view.set ↔ ∀ a : Fin 2, win0_5.index t a * S4096x36.size a ≤ (i a).val
      ∧ (i a).val < win0_5.index t a * S4096x36.size a + S4096x36.size a := by
  show i ∈ ((View.whole main_v20).slice (win0_5.rect t)).set ↔ _
  rw [View.set_slice_whole, Rect.mem_set_unit]
  exact Iff.rfl

/-- Row `r` is in the tile of the point whose block index is `r / 4096`. -/
theorem cover (i : S262144x36.Idx) :
    ∃ t : Fin cfg0.N, (cfg0.win 5).flush t = true ∧ i ∈ ((cfg0.win 5).blk t).view.set := by
  have hi0 : (i 0).val < 262144 := (i 0).isLt
  have hi1 : (i 1).val < 36 := (i 1).isLt
  obtain ⟨t, ht⟩ := index_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_tile]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 36 ≤ (i 1).val ∧ (i 1).val < win0_5.index t (1 : Fin 2) * 36 + 36
    omega

/-! ## The array after the launch, and the run -/

/-- After the launch the result array is `found`. -/
theorem final (c : Dev nD) : (dats m 0 c).arrAt 5 cfg0.N = found m c :=
  (dats m 0 c).arrAt_eq_of_cover 5 (found m c) (fun t _ => flushed_eq m c t) cover

/-- The kernel program's run: it terminates with the result array at `found` and the six arguments unchanged. -/
theorem run : θ_run defs (onTc (τ := τ) (main (F := Ideal))) ⟨m, fun _ => 0, ρ⟩ fun r => ∀ c : Dev nD,
      r.2.mem ((c : Thread nD τ).loc main_v20) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Mlp.Tiles

end
-- ==== Proof.Entry.lean ====
/-
  What the one kernel launch finds in the arrays it reads.

  Before the launch the program builds, from the index and table arguments, the 262144 × 250 input array — by the
  same chain of operations, with the same constants, as the reference does: it is the reference's embedded-input
  stage of the same two arguments.  It also re-lays each bias vector as a one-row matrix: row 0, column `k` of that
  matrix is entry `k` of the vector.  The two weight arrays are passed as they are.
-/
import proofs.«108515_j13340168421424_1_alg».proof.Proof.Gen.KernelIdeal.Frame
import proofs.«108515_j13340168421424_1_alg».proof.Proof.Gen.ReferenceIdeal.Read
import Idealize.ShloMosaic.Lib.StableHlo.Run
import Idealize.ShloMosaic.Lib.Pipeline.Value
import Idealize.ShloMosaic.Lib.ValueIdx

noncomputable section

namespace Cert.Mlp.Entry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 2000000 in
/-- The input array at the launch is the reference's embedded-input stage of the index and table arguments. -/
theorem input_eq (c : Dev nD) :
    (V m c main_v17 : S262144x250.Idx → EReal)
      = Cert.ReferenceIdeal.Read.val_main_v17 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  rfl

set_option maxHeartbeats 2000000 in
/-- The first bias as the launch finds it: the bias vector re-laid as one row. -/
theorem bias1_eq (c : Dev nD) :
    (V m c main_v18 : S1x250.Idx → EReal)
      = shapeCast S1x250 (m ((c : Thread nD τ).loc main_arg3)) shapeCasts_S250_S1x250 := by
  dsimp only [V]
  simp only [hostOps0, hostOps0_1, hostOps0_2, List.flatten_cons, List.flatten_nil, List.append_nil, List.cons_append,
    List.nil_append]
  after_results_simp
  rfl

set_option maxHeartbeats 2000000 in
/-- The second bias as the launch finds it: the bias vector re-laid as one row. -/
theorem bias2_eq (c : Dev nD) :
    (V m c main_v19 : S1x36.Idx → EReal)
      = shapeCast S1x36 (m ((c : Thread nD τ).loc main_arg5)) shapeCasts_S36_S1x36 := by
  dsimp only [V]
  simp only [hostOps0, hostOps0_1, hostOps0_2, List.flatten_cons, List.flatten_nil, List.append_nil, List.cons_append,
    List.nil_append]
  after_results_simp
  rfl

/-- Row 0, column `k` of a vector re-laid as a 1 × 250 matrix is the vector's entry `k`. -/
theorem row250_apply (v : S250.Idx → EReal) (h : S250.ShapeCasts S1x250) (k : Fin 250) :
    shapeCast S1x250 v h (ix2 (0 : Fin 1) k) = v (ix1 k) :=
  shapeCast_apply v h (ix2 (0 : Fin 1) k) (ix1 k) (by
    rewrite [Shape.rowMajor_val_one, Shape.rowMajor_val_two]
    show k.val = 0 * 250 + k.val; omega)

/-- Row 0, column `o` of a vector re-laid as a 1 × 36 matrix is the vector's entry `o`. -/
theorem row36_apply (v : S36.Idx → EReal) (h : S36.ShapeCasts S1x36) (o : Fin 36) :
    shapeCast S1x36 v h (ix2 (0 : Fin 1) o) = v (ix1 o) :=
  shapeCast_apply v h (ix2 (0 : Fin 1) o) (ix1 o) (by
    rewrite [Shape.rowMajor_val_one, Shape.rowMajor_val_two]
    show o.val = 0 * 36 + o.val; omega)

end Cert.Mlp.Entry

end
-- ==== Proof.Bridge.lean ====
/-
  The kernel program's result as a function of the six ARGUMENTS.

  `Tiles.found` is the perceptron of the arrays the launch finds.  Those are (`Entry.lean`): the reference's
  embedded-input stage of the index and table arguments; the two weight arguments untouched; and each bias
  argument re-laid as one row, whose row 0 read at column `k` is the bias's entry `k`.  Substituting gives
  `Mlp.out` of that input stage and the four weight and bias arguments — the same term the reference's result is
  (`RefIsSpec.lean`).
-/
import proofs.«108515_j13340168421424_1_alg».proof.Proof.Tiles
import proofs.«108515_j13340168421424_1_alg».proof.Proof.Entry

noncomputable section

namespace Cert.Mlp.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Row 0 of a bias re-laid as one row, column by column, is the bias. -/
theorem biasRow250 (v : S250.Idx → EReal) (h : S250.ShapeCasts S1x250) :
    (fun a : (⟨1, ![250]⟩ : Shape).Idx => shapeCast S1x250 v h (ix2 (0 : Fin 1) (⟨(a 0).val, (a 0).isLt⟩ : Fin 250))) = v :=
  funext fun a => (Cert.Mlp.Entry.row250_apply v h _).trans
    (congrArg v (funext fun d => by match d with | ⟨0, _⟩ => rfl))

theorem biasRow36 (v : S36.Idx → EReal) (h : S36.ShapeCasts S1x36) :
    (fun a : (⟨1, ![36]⟩ : Shape).Idx => shapeCast S1x36 v h (ix2 (0 : Fin 1) (⟨(a 0).val, (a 0).isLt⟩ : Fin 36))) = v :=
  funext fun a => (Cert.Mlp.Entry.row36_apply v h _).trans
    (congrArg v (funext fun d => by match d with | ⟨0, _⟩ => rfl))

/-- The kernel program's result is the perceptron of the reference's embedded input and the weight and bias arguments. -/
theorem found_eq (c : Dev nD) :
    Cert.Mlp.Tiles.found m c
      = Cert.Mlp.out
          (Cert.ReferenceIdeal.Read.val_main_v17 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  unfold Cert.Mlp.Tiles.found
  rw [Cert.Mlp.Entry.input_eq, Cert.Mlp.Entry.bias1_eq, Cert.Mlp.Entry.bias2_eq, V_main_arg2, V_main_arg4,
    biasRow250, biasRow36]

end Cert.Mlp.Bridge

end
-- ==== Proof.lean ====
/-
  A two-layer perceptron over embedded rows, tiled by rows, against the same perceptron computed whole.

  Both programs first build one input array `X` (262144 × 250) from an index array and an embedding table, by the
  same chain of operations with the same constants: a range mask, a clamped table lookup, the product with the mask,
  and a re-laying of each row's five looked-up vectors side by side.  The reference then takes
  `tanh(X · w1 + b1) · w2 + b2` with whole-array products and broadcast biases.  The kernel program re-lays each bias
  as one row and runs one launch over 64 tiles of 4096 rows; each tile computes the same expression on its rows, with
  roundings to bf16 in front of the two products and a zero accumulator in each.

  On the extended reals a rounding is the identity, a product into a zero accumulator is the plain sum over the 250
  contraction positions, and a broadcast bias read at a column is the bias there, so entry `(r, o)` of either result
  is  (Σ_k tanh((Σ_j X(r,j) · w1(j,k)) + b1 k) · w2(k,o)) + b2 o  — the same sums in the same index order; no law of
  arithmetic beyond  0 + s = s  is used, and the finiteness of the inputs is not needed.  An entry reads one row of
  `X` only, so the tiles' results are the rows of one whole-array function, and the 64 tiles cover all rows.

  The modules: `Spec` (the function, over no program), `RefIsSpec` (the reference's last stage is it), `Payload`
  (a stored tile's entry is it, of the loaded block's row), `Tiles` (the tiles assemble to the whole array),
  `Entry` and `Bridge` (the arrays the launch finds, in terms of the arguments).  The three frames are the
  programs' runs with the result dropped; the idealization rewrote nothing, so `preserves` has nothing to show.
-/
import proofs.«108515_j13340168421424_1_alg».proof.Defs
import proofs.«108515_j13340168421424_1_alg».proof.Proof.Gen.Kernel
import proofs.«108515_j13340168421424_1_alg».proof.Proof.Gen.Kernel.Frame
import proofs.«108515_j13340168421424_1_alg».proof.Proof.Gen.KernelIdeal
import proofs.«108515_j13340168421424_1_alg».proof.Proof.Gen.KernelIdeal.Frame
import proofs.«108515_j13340168421424_1_alg».proof.Proof.Gen.KernelIdeal.Value
import proofs.«108515_j13340168421424_1_alg».proof.Proof.Gen.ReferenceIdeal
import proofs.«108515_j13340168421424_1_alg».proof.Proof.Gen.ReferenceIdeal.Run
import proofs.«108515_j13340168421424_1_alg».proof.Proof.Gen.ReferenceIdeal.Read
import proofs.«108515_j13340168421424_1_alg».proof.Proof.Gen.Pre_finite_inputs
import proofs.«108515_j13340168421424_1_alg».proof.Proof.RefIsSpec
import proofs.«108515_j13340168421424_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result array at the perceptron of
    the embedded input and the weights: the kernel program by its tiles (`Tiles.run`, `Bridge.found_eq`), the
    reference by its stages read at an entry (`Ref.result_eq`). -/
theorem algebraic : Cert.algebraic_KernelIdeal_ReferenceIdeal := by
  intro m ρ m' ρ' _ hagree
  refine ⟨fun c => Cert.Mlp.Tiles.found m c, Cert.Mlp.Tiles.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq (F := Ideal) _ _ _ _ _ _).trans ?_
  rw [Cert.Mlp.Ref.result_eq, (hagree c).1, (hagree c).2.1, (hagree c).2.2.1, (hagree c).2.2.2.1, (hagree c).2.2.2.2.1,
    (hagree c).2.2.2.2.2]
  exact (Cert.Mlp.Bridge.found_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
